-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : IVec S1200000 32) (main_arg10 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S1x64 : Shape := ⟨2, ![1, 64]⟩
abbrev S5000x64 : Shape := ⟨2, ![5000, 64]⟩
abbrev S_ : Shape := ⟨0, ![]⟩
abbrev S1200000x1 : Shape := ⟨2, ![1200000, 1]⟩
abbrev S1200000x64 : Shape := ⟨2, ![1200000, 64]⟩

abbrev nBuf : Space → Nat
  | .hbm => 47
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1200000, .i32⟩
  | .hbm, ⟨10, _⟩ => ⟨S1200000, .i32⟩
  | .hbm, ⟨11, _⟩ => ⟨S1x64, .f32⟩
  | .hbm, ⟨12, _⟩ => ⟨S100000x64, .f32⟩
  | .hbm, ⟨13, _⟩ => ⟨S100000x64, .f32⟩
  | .hbm, ⟨14, _⟩ => ⟨S_, .i32⟩
  | .hbm, ⟨15, _⟩ => ⟨S1200000, .i32⟩
  | .hbm, ⟨16, _⟩ => ⟨S1200000, .i1⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S1200000, .i32⟩
  | .hbm, ⟨21, _⟩ => ⟨S1200000x1, .i32⟩
  | .hbm, ⟨22, _⟩ => ⟨S1200000x64, .f32⟩
  | .hbm, ⟨23, _⟩ => ⟨S_, .f32⟩
  | .hbm, ⟨24, _⟩ => ⟨S100000x64, .f32⟩
  | .hbm, ⟨25, _⟩ => ⟨S1200000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .f32⟩
  | .hbm, ⟨41, _⟩ => ⟨S_, .f32⟩
  | .hbm, ⟨42, _⟩ => ⟨S100000x64, .f32⟩
  | .hbm, ⟨43, _⟩ => ⟨S1200000x1, .i32⟩
  | .hbm, ⟨44, _⟩ => ⟨S100000x64, .f32⟩
  | .hbm, ⟨45, _⟩ => ⟨S1x64, .f32⟩
  | .hbm, ⟨46, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1200000, .i32⟩
  | .hbm, ⟨10, _⟩ => ⟨S1200000, .i32⟩
  | .hbm, ⟨11, _⟩ => ⟨S100000x64, .f32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_cst : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_cst : Ref sig .tc := ⟨.hbm, 56, rfl⟩
abbrev main_call2_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call3_cst : Ref sig .tc := ⟨.hbm, 63, rfl⟩
abbrev main_call3_v0 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The kernel's run with its result named.

  The program is four grid launches among four stretches of host operations.  Its buffer contents at each boundary
  form a chain: the launch memory, then alternately "after the stretch's host operations" and "after the launch's
  write-backs".  Every weakly fair execution ends with every buffer that outlives a launch at the last link of that
  chain.  The frame certificate reads only the argument arrays out of that last link; here the result array is read
  out of it as well, so that its value can be computed link by link.
-/
import proofs.«144645_j61005715472861_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result array at the last boundary's contents
    and the eleven argument arrays as launched. -/
theorem run_named : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.NamedRun

end
-- ==== Proof.Spec.lean ====
/-
  Two graph-convolution layers with a residual branch, over the extended reals.

  One layer takes node features x (100000 nodes, 64 features each), a weight matrix W and bias b for the
  convolution branch, a weight matrix Wr and bias br for the residual branch, and an aggregation agg of a
  100000 by 64 array over the graph's edges (every node receives the sum of the rows of its in-neighbours; here
  the aggregation is a parameter, and nothing about it is used).  The layer's value at node p, feature q is

      max (agg (x W) (p, q) + b q) 0  +  max ((x Wr) (p, q) + br q) 0,

  where (x W) (p, q) is the sum over the 64 input features k of x (p, k) W (k, q).  The whole function applies
  the layer twice with the same aggregation.  The biases enter as 1 by 64 rows, the form both programs read them in.
-/
import Idealize.ShloMosaic.PureOps.Ideal
import Idealize.ShloMosaic.Lib.ValueIdx

noncomputable section

namespace Cert.Gcn

open Idealize.ShloMosaic Idealize.ShloMosaic.ValueIdx

/-- Node features: 100000 nodes, 64 features. -/
abbrev Nodes : Shape := ⟨2, ![100000, 64]⟩
/-- A 64 by 64 weight matrix. -/
abbrev Weights : Shape := ⟨2, ![64, 64]⟩
/-- A bias as a 1 by 64 row. -/
abbrev Row : Shape := ⟨2, ![1, 64]⟩
/-- A bias as a vector of 64 entries. -/
abbrev Bias : Shape := ⟨1, ![64]⟩

/-- The node index of an entry of a node array. -/
abbrev node (i : Nodes.Idx) : Fin 100000 := i 0
/-- The feature index of an entry of a node array. -/
abbrev feat (i : Nodes.Idx) : Fin 64 := i 1

/-- The features projected by a weight matrix: entry (p, q) is the sum over the input features k of
    x (p, k) W (k, q). -/
def proj (x : Nodes.Idx → EReal) (W : Weights.Idx → EReal) : Nodes.Idx → EReal :=
  fun i => ∑ k : Fin 64, x (ix2 (node i) k) * W (ix2 k (feat i))

/-- The residual branch: the projection by Wr plus the bias row, cut off below at zero. -/
def resid (x : Nodes.Idx → EReal) (Wr : Weights.Idx → EReal) (br : Row.Idx → EReal) : Nodes.Idx → EReal :=
  fun i => max (proj x Wr i + br (ix2 (0 : Fin 1) (feat i))) 0

/-- The convolution branch joined with the residual: the aggregated array plus the bias row, cut off below at
    zero, plus the residual. -/
def combine (a : Nodes.Idx → EReal) (b : Row.Idx → EReal) (r : Nodes.Idx → EReal) : Nodes.Idx → EReal :=
  fun i => max (a i + b (ix2 (0 : Fin 1) (feat i))) 0 + r i

/-- A bias vector as a 1 by 64 row. -/
def row (b : Bias.Idx → EReal) : Row.Idx → EReal := fun j => b (ix1 (j 1 : Fin 64))

/-- One layer: aggregate the projection by W, add b, cut off at zero, and add the residual branch. -/
def layer (agg : (Nodes.Idx → EReal) → Nodes.Idx → EReal) (x : Nodes.Idx → EReal) (W : Weights.Idx → EReal)
    (b : Bias.Idx → EReal) (Wr : Weights.Idx → EReal) (br : Bias.Idx → EReal) : Nodes.Idx → EReal :=
  combine (agg (proj x W)) (row b) (resid x Wr (row br))

/-- Two layers with one aggregation. -/
def twoLayers (agg : (Nodes.Idx → EReal) → Nodes.Idx → EReal) (x : Nodes.Idx → EReal)
    (W1 : Weights.Idx → EReal) (b1 : Bias.Idx → EReal) (Wr1 : Weights.Idx → EReal) (br1 : Bias.Idx → EReal)
    (W2 : Weights.Idx → EReal) (b2 : Bias.Idx → EReal) (Wr2 : Weights.Idx → EReal) (br2 : Bias.Idx → EReal) :
    Nodes.Idx → EReal :=
  layer agg (layer agg x W1 b1 Wr1 br1) W2 b2 Wr2 br2

theorem proj_ix2 (x : Nodes.Idx → EReal) (W : Weights.Idx → EReal) (p : Fin 100000) (q : Fin 64) :
    proj x W (ix2 p q) = ∑ k : Fin 64, x (ix2 p k) * W (ix2 k q) := rfl

theorem resid_ix2 (x : Nodes.Idx → EReal) (Wr : Weights.Idx → EReal) (br : Row.Idx → EReal) (p : Fin 100000) (q : Fin 64) :
    resid x Wr br (ix2 p q) = max ((∑ k : Fin 64, x (ix2 p k) * Wr (ix2 k q)) + br (ix2 (0 : Fin 1) q)) 0 := rfl

theorem combine_ix2 (a : Nodes.Idx → EReal) (b : Row.Idx → EReal) (r : Nodes.Idx → EReal) (p : Fin 100000) (q : Fin 64) :
    combine a b r (ix2 p q) = max (a (ix2 p q) + b (ix2 (0 : Fin 1) q)) 0 + r (ix2 p q) := rfl

end Cert.Gcn

end
-- ==== Proof.Boundary.lean ====
/-
  The kernel's host code between its four grid launches, read at the buffers each launch takes.

  The buffer contents at the boundaries form a chain (launch memory; after the first stretch of host operations;
  after the first launch's write-backs; and so on).  Three kinds of fact are read off it here.  An argument array is
  written by nothing, so it is what was launched at every boundary.  A bias vector reshaped to a 1 by 64 row is the
  vector read at the column.  And the stretch between a projection launch and a combine launch is the aggregation
  over the graph's edges: a gather of the projected rows at the normalised source indices (a negative index has
  100000 added) followed by a scatter-add at the destination indices into a zero array.  The aggregation is named
  once and never opened: the reference spells the same operations.
-/
import proofs.«144645_j61005715472861_1_alg».proof.Proof.Gen.KernelIdeal.Frame
import proofs.«144645_j61005715472861_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Boundary

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The aggregation over the graph's edges, as the kernel's host code spells it: row `dst e` of the result is the sum
    over the edges `e` of row `src e` of `xw` (a negative `src e` counted from the end). -/
def agg (src dst : (⟨S1200000, .i32⟩ : BufTy).Contents (Elt Ideal)) (xw : (⟨S100000x64, .f32⟩ : BufTy).Contents (Elt Ideal)) : (⟨S100000x64, .f32⟩ : BufTy).Contents (Elt Ideal) :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (Host.gather gather_S100000x64_S1200000x1_S1200000x64_1_0_n_n_0_1_164 xw
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src)))

/-- A vector of 64 entries reshaped to a 1 by 64 row reads, at column `q`, the vector at `q`. -/
theorem reshape_row (b : (⟨S64, .f32⟩ : BufTy).Contents (Elt Ideal)) :
    shapeCast S1x64 b shapeCasts_S64_S1x64 = Cert.Gcn.row b := by
  funext j
  obtain ⟨u, q, rfl⟩ : ∃ (u : Fin 1) (q : Fin 64), j = ix2 u q := ⟨j 0, j 1, eq_ix2 j⟩
  exact shapeCast_a_1a_apply b shapeCasts_S64_S1x64 u q

/-! The argument array `main_arg0` is written by nothing, so every boundary up to the one that needs it holds what was launched. -/
theorem W1_arg0 : W1 m ρ c (Proc.devRef .tc main_arg0) = m ((c : Thread nD τ).loc main_arg0) := by
  show StableHlo.after hostOps0 _ (Proc.devRef .tc main_arg0) = _
  after_results

/-! The argument array `main_arg1` is written by nothing, so every boundary up to the one that needs it holds what was launched. -/
theorem W1_arg1 : W1 m ρ c (Proc.devRef .tc main_arg1) = m ((c : Thread nD τ).loc main_arg1) := by
  show StableHlo.after hostOps0 _ (Proc.devRef .tc main_arg1) = _
  after_results

/-! The argument array `main_arg3` is written by nothing, so every boundary up to the one that needs it holds what was launched. -/
theorem W1_arg3 : W1 m ρ c (Proc.devRef .tc main_arg3) = m ((c : Thread nD τ).loc main_arg3) := by
  show StableHlo.after hostOps0 _ (Proc.devRef .tc main_arg3) = _
  after_results

/-! The argument array `main_arg2` is written by nothing, so every boundary up to the one that needs it holds what was launched. -/
theorem W1_arg2 : W1 m ρ c (Proc.devRef .tc main_arg2) = m ((c : Thread nD τ).loc main_arg2) := by
  show StableHlo.after hostOps0 _ (Proc.devRef .tc main_arg2) = _
  after_results
theorem W2_arg2 : W2 m ρ c (Proc.devRef .tc main_arg2) = m ((c : Thread nD τ).loc main_arg2) :=
  (W2_of_ne m ρ c main_arg2 (by decide)).trans (W1_arg2 m ρ c)

/-! The argument array `main_arg5` is written by nothing, so every boundary up to the one that needs it holds what was launched. -/
theorem W1_arg5 : W1 m ρ c (Proc.devRef .tc main_arg5) = m ((c : Thread nD τ).loc main_arg5) := by
  show StableHlo.after hostOps0 _ (Proc.devRef .tc main_arg5) = _
  after_results
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) := by
  show StableHlo.after hostOps1 _ (Proc.devRef .tc main_arg5) = _
  after_results
  exact W2_arg5 m ρ c
theorem W4_arg5 : W4 m ρ c (Proc.devRef .tc main_arg5) = m ((c : Thread nD τ).loc main_arg5) :=
  (W4_of_ne m ρ c main_arg5 (by decide)).trans (W3_arg5 m ρ c)
theorem W5_arg5 : W5 m ρ c (Proc.devRef .tc main_arg5) = m ((c : Thread nD τ).loc main_arg5) := by
  show StableHlo.after hostOps2 _ (Proc.devRef .tc main_arg5) = _
  after_results
  exact W4_arg5 m ρ c

/-! The argument array `main_arg7` is written by nothing, so every boundary up to the one that needs it holds what was launched. -/
theorem W1_arg7 : W1 m ρ c (Proc.devRef .tc main_arg7) = m ((c : Thread nD τ).loc main_arg7) := by
  show StableHlo.after hostOps0 _ (Proc.devRef .tc main_arg7) = _
  after_results
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) := by
  show StableHlo.after hostOps1 _ (Proc.devRef .tc main_arg7) = _
  after_results
  exact W2_arg7 m ρ c
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) := by
  show StableHlo.after hostOps2 _ (Proc.devRef .tc main_arg7) = _
  after_results
  exact W4_arg7 m ρ c

/-! The argument array `main_arg8` is written by nothing, so every boundary up to the one that needs it holds what was launched. -/
theorem W1_arg8 : W1 m ρ c (Proc.devRef .tc main_arg8) = m ((c : Thread nD τ).loc main_arg8) := by
  show StableHlo.after hostOps0 _ (Proc.devRef .tc main_arg8) = _
  after_results
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) := by
  show StableHlo.after hostOps1 _ (Proc.devRef .tc main_arg8) = _
  after_results
  exact W2_arg8 m ρ c
theorem W4_arg8 : W4 m ρ c (Proc.devRef .tc main_arg8) = m ((c : Thread nD τ).loc main_arg8) :=
  (W4_of_ne m ρ c main_arg8 (by decide)).trans (W3_arg8 m ρ c)

/-! The argument array `main_arg9` is written by nothing, so every boundary up to the one that needs it holds what was launched. -/
theorem W1_arg9 : W1 m ρ c (Proc.devRef .tc main_arg9) = m ((c : Thread nD τ).loc main_arg9) := by
  show StableHlo.after hostOps0 _ (Proc.devRef .tc main_arg9) = _
  after_results
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) := by
  show StableHlo.after hostOps1 _ (Proc.devRef .tc main_arg9) = _
  after_results
  exact W2_arg9 m ρ c
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) := by
  show StableHlo.after hostOps2 _ (Proc.devRef .tc main_arg9) = _
  after_results
  exact W4_arg9 m ρ c
theorem W6_arg9 : W6 m ρ c (Proc.devRef .tc main_arg9) = m ((c : Thread nD τ).loc main_arg9) :=
  (W6_of_ne m ρ c main_arg9 (by decide)).trans (W5_arg9 m ρ c)

/-! The argument array `main_arg10` is written by nothing, so every boundary up to the one that needs it holds what was launched. -/
theorem W1_arg10 : W1 m ρ c (Proc.devRef .tc main_arg10) = m ((c : Thread nD τ).loc main_arg10) := by
  show StableHlo.after hostOps0 _ (Proc.devRef .tc main_arg10) = _
  after_results
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) := by
  show StableHlo.after hostOps1 _ (Proc.devRef .tc main_arg10) = _
  after_results
  exact W2_arg10 m ρ c
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) := by
  show StableHlo.after hostOps2 _ (Proc.devRef .tc main_arg10) = _
  after_results
  exact W4_arg10 m ρ c
theorem W6_arg10 : W6 m ρ c (Proc.devRef .tc main_arg10) = m ((c : Thread nD τ).loc main_arg10) :=
  (W6_of_ne m ρ c main_arg10 (by decide)).trans (W5_arg10 m ρ c)

/-! The argument array `main_arg6` is written by nothing, so every boundary up to the one that needs it holds what was launched. -/
theorem W1_arg6 : W1 m ρ c (Proc.devRef .tc main_arg6) = m ((c : Thread nD τ).loc main_arg6) := by
  show StableHlo.after hostOps0 _ (Proc.devRef .tc main_arg6) = _
  after_results
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) := by
  show StableHlo.after hostOps1 _ (Proc.devRef .tc main_arg6) = _
  after_results
  exact W2_arg6 m ρ c
theorem W4_arg6 : W4 m ρ c (Proc.devRef .tc main_arg6) = m ((c : Thread nD τ).loc main_arg6) :=
  (W4_of_ne m ρ c main_arg6 (by decide)).trans (W3_arg6 m ρ c)
theorem W5_arg6 : W5 m ρ c (Proc.devRef .tc main_arg6) = m ((c : Thread nD τ).loc main_arg6) := by
  show StableHlo.after hostOps2 _ (Proc.devRef .tc main_arg6) = _
  after_results
  exact W4_arg6 m ρ c
theorem W6_arg6 : W6 m ρ c (Proc.devRef .tc main_arg6) = m ((c : Thread nD τ).loc main_arg6) :=
  (W6_of_ne m ρ c main_arg6 (by decide)).trans (W5_arg6 m ρ c)

/-! ## The first layer's boundaries -/

/-- The first projection launch takes the residual bias as a row. -/
theorem W1_v0 : W1 m ρ c (Proc.devRef .tc main_v0) = Cert.Gcn.row (m ((c : Thread nD τ).loc main_arg4)) := by
  show StableHlo.after hostOps0 _ (Proc.devRef .tc main_v0) = _
  after_results
  exact reshape_row _

/-- The first combine launch takes the aggregation of the first launch's projected rows. -/
theorem W3_v11 : W3 m ρ c (Proc.devRef .tc main_v11)
    = agg (m ((c : Thread nD τ).loc main_arg9)) (m ((c : Thread nD τ).loc main_arg10)) (W2 m ρ c (Proc.devRef .tc main_v1_0)) := by
  show StableHlo.after hostOps1 _ (Proc.devRef .tc main_v11) = _
  after_results
  rw [W2_arg9, W2_arg10]
  rfl

/-- It takes the convolution bias as a row. -/
theorem W3_v12 : W3 m ρ c (Proc.devRef .tc main_v12) = Cert.Gcn.row (m ((c : Thread nD τ).loc main_arg2)) := by
  show StableHlo.after hostOps1 _ (Proc.devRef .tc main_v12) = _
  after_results
  rw [W2_arg2]
  exact reshape_row _

/-- It takes the first launch's residual as that launch left it. -/
theorem W3_v1_1 : W3 m ρ c (Proc.devRef .tc main_v1_1) = W2 m ρ c (Proc.devRef .tc main_v1_1) := by
  show StableHlo.after hostOps1 _ (Proc.devRef .tc main_v1_1) = _
  after_results

/-! ## The second layer's boundaries -/

/-- The second projection launch takes the first layer's result as the combine launch left it. -/
theorem W5_v13 : W5 m ρ c (Proc.devRef .tc main_v13) = W4 m ρ c (Proc.devRef .tc main_v13) := by
  show StableHlo.after hostOps2 _ (Proc.devRef .tc main_v13) = _
  after_results

/-- It takes the second residual bias as a row. -/
theorem W5_v14 : W5 m ρ c (Proc.devRef .tc main_v14) = Cert.Gcn.row (m ((c : Thread nD τ).loc main_arg8)) := by
  show StableHlo.after hostOps2 _ (Proc.devRef .tc main_v14) = _
  after_results
  rw [W4_arg8]
  exact reshape_row _

/-- The second combine launch takes the aggregation of the second projection's rows. -/
theorem W7_v25 : W7 m ρ c (Proc.devRef .tc main_v25)
    = agg (m ((c : Thread nD τ).loc main_arg9)) (m ((c : Thread nD τ).loc main_arg10)) (W6 m ρ c (Proc.devRef .tc main_v15_0)) := by
  show StableHlo.after hostOps3 _ (Proc.devRef .tc main_v25) = _
  after_results
  rw [W6_arg9, W6_arg10]
  rfl

/-- It takes the second convolution bias as a row. -/
theorem W7_v26 : W7 m ρ c (Proc.devRef .tc main_v26) = Cert.Gcn.row (m ((c : Thread nD τ).loc main_arg6)) := by
  show StableHlo.after hostOps3 _ (Proc.devRef .tc main_v26) = _
  after_results
  rw [W6_arg6]
  exact reshape_row _

/-- It takes the second launch's residual as that launch left it. -/
theorem W7_v15_1 : W7 m ρ c (Proc.devRef .tc main_v15_1) = W6 m ρ c (Proc.devRef .tc main_v15_1) := by
  show StableHlo.after hostOps3 _ (Proc.devRef .tc main_v15_1) = _
  after_results

end Cert.KernelIdeal.Boundary

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.RegionDense.lean ====
/-
  The dense-projection steps of the two graph-convolution layers.

  Each layer begins by multiplying the node features (100000 rows of 64 features, handled in 20 blocks of 5000
  rows) by two 64 by 64 weight matrices.  The first product is kept as it is: entry (p, q) is the sum over the
  input features k of x (p, k) W (k, q).  The second product gets a bias row added and is cut off below at zero:
  entry (p, q) is max ((sum over k of x (p, k) Wr (k, q)) + br (0, q)) 0.  Over the extended reals the narrowing of
  the operands to a shorter format is the identity and the accumulator of each product starts at the real zero, so
  a block of 5000 rows of either result is the same formula read at the rows of that block, and the 20 blocks
  fill the whole array.
-/
import proofs.«144645_j61005715472861_1_alg».proof.Proof.Gen.KernelIdeal.Frame
import proofs.«144645_j61005715472861_1_alg».proof.Proof.Spec
import proofs.«144645_j61005715472861_1_alg».proof.Proof.LibMatmul
import Idealize.ShloMosaic.Lib.Pipeline.Value
import Idealize.ShloMosaic.Lib.ValueLayout
import Idealize.ShloMosaic.PureOps.Ideal.Laws

set_option maxRecDepth 16384

noncomputable section

namespace Cert.KernelIdeal.RegionDense

open Cert.KernelIdeal Cert.KernelIdeal.Gen
open Idealize.ShloMosaic Idealize.ShloMosaic.TcCoe Idealize.ShloMosaic.ValueIdx Idealize.SL.Sem
open Idealize.ShloMosaic.Pipeline (Dat)

/-! ## The product's index bookkeeping: rows and columns pass through, the contracted axis is the summation index -/

/-- The left operand is read at the output's row … -/
theorem dot_lhs_row (i : S5000x64.Idx) (q : dot_S5000x64_S64x64_S5000x64_1_0_0_1_n_n.contr.Idx) :
    (dot_S5000x64_S64x64_S5000x64_1_0_0_1_n_n.lhsIdx i q (0 : Fin 2)).val = (i (0 : Fin 2)).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and at the summation index along its second axis. -/
theorem dot_lhs_contr (i : S5000x64.Idx) (q : dot_S5000x64_S64x64_S5000x64_1_0_0_1_n_n.contr.Idx) :
    (dot_S5000x64_S64x64_S5000x64_1_0_0_1_n_n.lhsIdx i q (1 : Fin 2)).val = (q ⟨0, by decide⟩).val :=
  dot_S5000x64_S64x64_S5000x64_1_0_0_1_n_n.lhsIdx_val_of_single rfl i q

/-- The right operand is read at the summation index along its first axis … -/
theorem dot_rhs_contr (i : S5000x64.Idx) (q : dot_S5000x64_S64x64_S5000x64_1_0_0_1_n_n.contr.Idx) :
    (dot_S5000x64_S64x64_S5000x64_1_0_0_1_n_n.rhsIdx i q (0 : Fin 2)).val = (q ⟨0, by decide⟩).val :=
  dot_S5000x64_S64x64_S5000x64_1_0_0_1_n_n.rhsIdx_val_of_single rfl i q

/-- … and at the output's column. -/
theorem dot_rhs_col (i : S5000x64.Idx) (q : dot_S5000x64_S64x64_S5000x64_1_0_0_1_n_n.contr.Idx) :
    (dot_S5000x64_S64x64_S5000x64_1_0_0_1_n_n.rhsIdx i q (1 : Fin 2)).val = (i (1 : Fin 2)).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block of 5000 rows times a 64 by 64 matrix, accumulated into zero: entry (p, q) is the sum over the
    contracted axis. -/
theorem block_product (l : FVec Ideal S5000x64 .bf16) (r : FVec Ideal S64x64 .bf16) (p : Fin 5000) (q : Fin 64) :
    FloatOps.matmul dot_S5000x64_S64x64_S5000x64_1_0_0_1_n_n none l r
        (constant (F := Ideal) S5000x64 .f32 0x00000000#32) (ix2 p q)
      = ∑ k : Fin 64, l (ix2 p k) * r (ix2 k q) :=
  Cert.LibMatmul.matmul_zero_ix2 dot_S5000x64_S64x64_S5000x64_1_0_0_1_n_n rfl rfl
    dot_lhs_row dot_lhs_contr dot_rhs_contr dot_rhs_col none l r p q

/-! ## The first layer's body at an entry of a block -/

/-- The projection branch: the block of features times the weights. -/
theorem pay_xw (x0 : Vec Ideal S5000x64 .f32) (x1 : Vec Ideal S64x64 .f32) (p : Fin 5000) (q : Fin 64) :
    k0_pay2 x0 x1 (ix2 p q) = ∑ k : Fin 64, x0 (ix2 p k) * x1 (ix2 k q) := by
  unfold k0_pay2 k0_pay1
  exact block_product _ _ p q

/-- The residual branch: the block of features times the residual weights, plus the bias row, cut off at zero. -/
theorem pay_res (x0 : Vec Ideal S5000x64 .f32) (x2 : Vec Ideal S64x64 .f32) (x3 : Vec Ideal S1x64 .f32)
    (p : Fin 5000) (q : Fin 64) :
    k0_pay3 x0 x2 x3 (ix2 p q)
      = max ((∑ k : Fin 64, x0 (ix2 p k) * x2 (ix2 k q)) + x3 (ix2 (0 : Fin 1) q)) 0 := by
  unfold k0_pay3 k0_pay1
  dsimp only
  rw [maximumf_apply, addf_apply, broadcast_apply, shapeCast_self, broadcastTo_1b_ab_apply]
  have hprod := block_product (truncf FTy.bf16 x0 bitsLt_bf16_f32) (truncf FTy.bf16 x2 bitsLt_bf16_f32) p q
  have hzero : (FloatOps.ofBits FTy.f32 0x00000000#32 : Ideal .f32) = 0 := Ideal.ofBits_zero_f32
  rw [hzero]
  exact congrArg (fun z => max (z + x3 (ix2 (0 : Fin 1) q)) 0) hprod

/-! ## The first layer: from the blocks to the whole arrays -/

theorem hz : (![0, 0] : Fin 2 → Nat) = fun _ => 0 := funext fun a => by fin_cases a <;> rfl

/-- An entry of the projection of a block is the entry of the projection of the whole array at the block's row,
    once the block's rows are rows of the array and the weights are read whole. -/
theorem xw_entry (x0 : Vec Ideal S5000x64 .f32) (x1 : Vec Ideal S64x64 .f32)
    (X : Cert.Gcn.Nodes.Idx → EReal) (W : Cert.Gcn.Weights.Idx → EReal) (i : Cert.Gcn.Nodes.Idx)
    (p : Fin 5000) (q : Fin 64)
    (hx : ∀ k : Fin 64, x0 (ix2 p k) = X (ix2 (i 0) k)) (hw : ∀ k : Fin 64, x1 (ix2 k q) = W (ix2 k q))
    (hi : i 1 = q) :
    k0_pay2 x0 x1 (ix2 p q) = Cert.Gcn.proj X W i := by
  rw [pay_xw]
  show _ = ∑ k : Fin 64, X (ix2 (i 0) k) * W (ix2 k (i 1))
  rw [hi]
  exact Finset.sum_congr rfl fun k _ => by rw [hx k, hw k]

/-- The same for the residual branch, the bias row read whole. -/
theorem res_entry (x0 : Vec Ideal S5000x64 .f32) (x2 : Vec Ideal S64x64 .f32) (x3 : Vec Ideal S1x64 .f32)
    (X : Cert.Gcn.Nodes.Idx → EReal) (W : Cert.Gcn.Weights.Idx → EReal) (B : Cert.Gcn.Row.Idx → EReal)
    (i : Cert.Gcn.Nodes.Idx) (p : Fin 5000) (q : Fin 64)
    (hx : ∀ k : Fin 64, x0 (ix2 p k) = X (ix2 (i 0) k)) (hw : ∀ k : Fin 64, x2 (ix2 k q) = W (ix2 k q))
    (hb : x3 (ix2 (0 : Fin 1) q) = B (ix2 (0 : Fin 1) q)) (hi : i 1 = q) :
    k0_pay3 x0 x2 x3 (ix2 p q) = Cert.Gcn.resid X W B i := by
  rw [pay_res]
  show _ = max ((∑ k : Fin 64, X (ix2 (i 0) k) * W (ix2 k (i 1))) + B (ix2 (0 : Fin 1) (i 1))) 0
  rw [hi, hb]
  exact congrArg (fun z => max (z + B (ix2 (0 : Fin 1) q)) 0) (Finset.sum_congr rfl fun k _ => by rw [hx k, hw k])

variable (V : (c : Dev nD) → (b : Ref sig .tc) → Buf (Elt Ideal) ((c : Thread nD τ).loc b))

/-- The first dense step's index maps over its 20 grid points: the feature blocks and both output blocks move
    together, one block of rows per point; the weights and the bias row are always read whole. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point t writes back to the projection's array is block t of the projection of the whole arrays. -/
theorem flushed_xw (c : Dev nD) (t : Fin cfg0.N) :
    (dat0 (F := Ideal) V c).flushed 4 t
      = ((cfg0.win 4).blk t).view.read (Elt Ideal) (Cert.Gcn.proj (V c main_arg0) (V c main_arg1)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz]
  obtain ⟨e00, e01, e10, e11, -, -, -, -, e40, e41, -, -⟩ := block_index0 t
  funext j
  obtain ⟨p, q, rfl⟩ : ∃ (p : Fin 5000) (q : Fin 64), j = ix2 p q := ⟨j 0, j 1, eq_ix2 j⟩
  show k0_pay2 (iblk0 V c 0 t) (iblk0 V c 1 t) (ix2 p q)
    = Cert.Gcn.proj (V c main_arg0) (V c main_arg1) (((cfg0.win 4).blk t).view.emb (ix2 p q))
  refine xw_entry _ _ _ _ _ p q (fun k => ?_) (fun k => ?_) ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  · show V c main_arg1 (((cfg0.win 1).blk t).view.emb (ix2 k q)) = V c main_arg1 _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · refine Fin.ext ?_
    show win0_4.index t (1 : Fin 2) * 64 + 1 * q.val = q.val; omega

/-- What point t writes back to the residual's array is block t of the residual branch of the whole arrays. -/
theorem flushed_res (c : Dev nD) (t : Fin cfg0.N) :
    (dat0 (F := Ideal) V c).flushed 5 t
      = ((cfg0.win 5).blk t).view.read (Elt Ideal)
          (Cert.Gcn.resid (V c main_arg0) (V c main_arg3) (V c main_v0)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz,
    View.ld_unit_zero (S := S1x64) hz]
  obtain ⟨e00, e01, -, -, e20, e21, e30, e31, -, -, e50, e51⟩ := block_index0 t
  funext j
  obtain ⟨p, q, rfl⟩ : ∃ (p : Fin 5000) (q : Fin 64), j = ix2 p q := ⟨j 0, j 1, eq_ix2 j⟩
  show k0_pay3 (iblk0 V c 0 t) (iblk0 V c 2 t) (iblk0 V c 3 t) (ix2 p q)
    = Cert.Gcn.resid (V c main_arg0) (V c main_arg3) (V c main_v0) (((cfg0.win 5).blk t).view.emb (ix2 p q))
  refine res_entry _ _ _ _ _ _ _ p q (fun k => ?_) (fun k => ?_) ?_ ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  · show V c main_arg3 (((cfg0.win 2).blk t).view.emb (ix2 k q)) = V c main_arg3 _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  · show V c main_v0 (((cfg0.win 3).blk t).view.emb (ix2 (0 : Fin 1) q)) = V c main_v0 _
    refine congrArg _ (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 64 + 1 * q.val = q.val; omega
  · refine Fin.ext ?_
    show win0_5.index t (1 : Fin 2) * 64 + 1 * q.val = q.val; omega

/-- An entry of the projection's array lies in point t's block exactly when each coordinate is in the block's range. -/
theorem mem_block_xw (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v1_0).slice (win0_4.rect t)).set ↔ _
  rw [View.set_slice_whole, Rect.mem_set_unit]
  exact Iff.rfl

/-- The same for the residual's array. -/
theorem mem_block_res (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v1_1).slice (win0_5.rect t)).set ↔ _
  rw [View.set_slice_whole, Rect.mem_set_unit]
  exact Iff.rfl

/-- Row r of the projection's array lies in the block of point r / 5000: the 20 blocks fill the array. -/
theorem cover_xw (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, -, -, -, -, e40, e41, -, -⟩ := block_index0 ⟨(i 0).val / 5000, ht⟩
  refine ⟨⟨(i 0).val / 5000, ht⟩, flush0_4 _, ?_⟩
  rw [mem_block_xw]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, ht⟩ (1 : Fin 2) * 64 ≤ (i 1).val
      ∧ (i 1).val < win0_4.index ⟨(i 0).val / 5000, ht⟩ (1 : Fin 2) * 64 + 64
    rw [e41]; omega

/-- The same for the residual's array. -/
theorem cover_res (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, -, -, -, -, -, -, e50, e51⟩ := block_index0 ⟨(i 0).val / 5000, ht⟩
  refine ⟨⟨(i 0).val / 5000, ht⟩, flush0_5 _, ?_⟩
  rw [mem_block_res]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e51]; omega

/-- After the first dense step the projection's array holds the features times the weights … -/
theorem region0_xw (c : Dev nD) :
    (dat0 (F := Ideal) V c).arrAt 4 cfg0.N = Cert.Gcn.proj (V c main_arg0) (V c main_arg1) :=
  (dat0 (F := Ideal) V c).arrAt_eq_of_cover 4 (Cert.Gcn.proj (V c main_arg0) (V c main_arg1))
    (fun t _ => flushed_xw V c t) cover_xw

/-- … and the residual's array holds the residual branch. -/
theorem region0_res (c : Dev nD) :
    (dat0 (F := Ideal) V c).arrAt 5 cfg0.N = Cert.Gcn.resid (V c main_arg0) (V c main_arg3) (V c main_v0) :=
  (dat0 (F := Ideal) V c).arrAt_eq_of_cover 5 (Cert.Gcn.resid (V c main_arg0) (V c main_arg3) (V c main_v0))
    (fun t _ => flushed_res V c t) cover_res

/-! ## The second layer's body: the first layer's, after a reshaping of the feature block to its own shape -/

/-- The projection branch of the second layer is the first layer's. -/
theorem pay2_xw (x0 : Vec Ideal S5000x64 .f32) (x1 : Vec Ideal S64x64 .f32) : k2_pay2 x0 x1 = k0_pay2 x0 x1 := by
  unfold k2_pay2 k2_pay1 k0_pay2 k0_pay1
  rw [shapeCast_self]

/-- The residual branch of the second layer is the first layer's. -/
theorem pay2_res (x0 : Vec Ideal S5000x64 .f32) (x2 : Vec Ideal S64x64 .f32) (x3 : Vec Ideal S1x64 .f32) :
    k2_pay3 x0 x2 x3 = k0_pay3 x0 x2 x3 := by
  unfold k2_pay3 k2_pay1 k0_pay3 k0_pay1
  rw [shapeCast_self (s := S5000x64)]

/-- An entry of the second layer's projection of a block, read in the whole array. -/
theorem xw_entry2 (x0 : Vec Ideal S5000x64 .f32) (x1 : Vec Ideal S64x64 .f32)
    (X : Cert.Gcn.Nodes.Idx → EReal) (W : Cert.Gcn.Weights.Idx → EReal) (i : Cert.Gcn.Nodes.Idx)
    (p : Fin 5000) (q : Fin 64)
    (hx : ∀ k : Fin 64, x0 (ix2 p k) = X (ix2 (i 0) k)) (hw : ∀ k : Fin 64, x1 (ix2 k q) = W (ix2 k q))
    (hi : i 1 = q) :
    k2_pay2 x0 x1 (ix2 p q) = Cert.Gcn.proj X W i := by
  rw [pay2_xw]
  exact xw_entry x0 x1 X W i p q hx hw hi

/-- An entry of the second layer's residual branch of a block, read in the whole array. -/
theorem res_entry2 (x0 : Vec Ideal S5000x64 .f32) (x2 : Vec Ideal S64x64 .f32) (x3 : Vec Ideal S1x64 .f32)
    (X : Cert.Gcn.Nodes.Idx → EReal) (W : Cert.Gcn.Weights.Idx → EReal) (B : Cert.Gcn.Row.Idx → EReal)
    (i : Cert.Gcn.Nodes.Idx) (p : Fin 5000) (q : Fin 64)
    (hx : ∀ k : Fin 64, x0 (ix2 p k) = X (ix2 (i 0) k)) (hw : ∀ k : Fin 64, x2 (ix2 k q) = W (ix2 k q))
    (hb : x3 (ix2 (0 : Fin 1) q) = B (ix2 (0 : Fin 1) q)) (hi : i 1 = q) :
    k2_pay3 x0 x2 x3 (ix2 p q) = Cert.Gcn.resid X W B i := by
  rw [pay2_res]
  exact res_entry x0 x2 x3 X W B i p q hx hw hb hi

/-! ## The second layer: from the blocks to the whole arrays -/

/-- The second dense step's index maps over its 20 grid points: again one block of rows per point for the features
    and both outputs, the weights and the bias row read whole. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point t writes back to the second projection's array is block t of the projection of the whole arrays. -/
theorem flushed_xw2 (c : Dev nD) (t : Fin cfg2.N) :
    (dat2 (F := Ideal) V c).flushed 4 t
      = ((cfg2.win 4).blk t).view.read (Elt Ideal) (Cert.Gcn.proj (V c main_v13) (V c main_arg5)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz]
  obtain ⟨e00, e01, e10, e11, -, -, -, -, e40, e41, -, -⟩ := block_index2 t
  funext j
  obtain ⟨p, q, rfl⟩ : ∃ (p : Fin 5000) (q : Fin 64), j = ix2 p q := ⟨j 0, j 1, eq_ix2 j⟩
  show k2_pay2 (iblk2 V c 0 t) (iblk2 V c 1 t) (ix2 p q)
    = Cert.Gcn.proj (V c main_v13) (V c main_arg5) (((cfg2.win 4).blk t).view.emb (ix2 p q))
  refine xw_entry2 _ _ _ _ _ p q (fun k => ?_) (fun k => ?_) ?_
  · show V c main_v13 (((cfg2.win 0).blk t).view.emb (ix2 p k)) = V c main_v13 _
    refine congrArg _ (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * k.val = k.val; omega
  · show V c main_arg5 (((cfg2.win 1).blk t).view.emb (ix2 k q)) = V c main_arg5 _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  · refine Fin.ext ?_
    show win2_4.index t (1 : Fin 2) * 64 + 1 * q.val = q.val; omega

/-- What point t writes back to the second residual's array is block t of the residual branch of the whole arrays. -/
theorem flushed_res2 (c : Dev nD) (t : Fin cfg2.N) :
    (dat2 (F := Ideal) V c).flushed 5 t
      = ((cfg2.win 5).blk t).view.read (Elt Ideal)
          (Cert.Gcn.resid (V c main_v13) (V c main_arg7) (V c main_v14)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz,
    View.ld_unit_zero (S := S1x64) hz]
  obtain ⟨e00, e01, -, -, e20, e21, e30, e31, -, -, e50, e51⟩ := block_index2 t
  funext j
  obtain ⟨p, q, rfl⟩ : ∃ (p : Fin 5000) (q : Fin 64), j = ix2 p q := ⟨j 0, j 1, eq_ix2 j⟩
  show k2_pay3 (iblk2 V c 0 t) (iblk2 V c 2 t) (iblk2 V c 3 t) (ix2 p q)
    = Cert.Gcn.resid (V c main_v13) (V c main_arg7) (V c main_v14) (((cfg2.win 5).blk t).view.emb (ix2 p q))
  refine res_entry2 _ _ _ _ _ _ _ p q (fun k => ?_) (fun k => ?_) ?_ ?_
  · show V c main_v13 (((cfg2.win 0).blk t).view.emb (ix2 p k)) = V c main_v13 _
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * k.val = k.val; omega
  · show V c main_arg7 (((cfg2.win 2).blk t).view.emb (ix2 k q)) = V c main_arg7 _
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * q.val = q.val; omega
  · show V c main_v14 (((cfg2.win 3).blk t).view.emb (ix2 (0 : Fin 1) q)) = V c main_v14 _
    refine congrArg _ (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 64 + 1 * q.val = q.val; omega
  · refine Fin.ext ?_
    show win2_5.index t (1 : Fin 2) * 64 + 1 * q.val = q.val; omega

/-- Membership of an entry of the second projection's array in point t's block, coordinate by coordinate. -/
theorem mem_block_xw2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v15_0).slice (win2_4.rect t)).set ↔ _
  rw [View.set_slice_whole, Rect.mem_set_unit]
  exact Iff.rfl

/-- The same for the residual's array. -/
theorem mem_block_res2 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v15_1).slice (win2_5.rect t)).set ↔ _
  rw [View.set_slice_whole, Rect.mem_set_unit]
  exact Iff.rfl

/-- Row r of the second projection's array lies in the block of point r / 5000. -/
theorem cover_xw2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 5000 < cfg2.N := by rw [show cfg2.N = 20 from N_2]; omega
  obtain ⟨-, -, -, -, -, -, -, -, e40, e41, -, -⟩ := block_index2 ⟨(i 0).val / 5000, ht⟩
  refine ⟨⟨(i 0).val / 5000, ht⟩, flush2_4 _, ?_⟩
  rw [mem_block_xw2]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val
      ∧ (i 1).val < win2_4.index ⟨(i 0).val / 5000, ht⟩ (1 : Fin 2) * 64 + 64
    rw [e41]; omega

/-- The same for the residual's array. -/
theorem cover_res2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have ht : (i 0).val / 5000 < cfg2.N := by rw [show cfg2.N = 20 from N_2]; omega
  obtain ⟨-, -, -, -, -, -, -, -, -, -, e50, e51⟩ := block_index2 ⟨(i 0).val / 5000, ht⟩
  refine ⟨⟨(i 0).val / 5000, ht⟩, flush2_5 _, ?_⟩
  rw [mem_block_res2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e51]; omega

/-- After the second dense step the projection's array holds the features times the weights … -/
theorem region2_xw (c : Dev nD) :
    (dat2 (F := Ideal) V c).arrAt 4 cfg2.N = Cert.Gcn.proj (V c main_v13) (V c main_arg5) :=
  (dat2 (F := Ideal) V c).arrAt_eq_of_cover 4 (Cert.Gcn.proj (V c main_v13) (V c main_arg5))
    (fun t _ => flushed_xw2 V c t) cover_xw2

/-- … and the residual's array holds the residual branch. -/
theorem region2_res (c : Dev nD) :
    (dat2 (F := Ideal) V c).arrAt 5 cfg2.N = Cert.Gcn.resid (V c main_v13) (V c main_arg7) (V c main_v14) :=
  (dat2 (F := Ideal) V c).arrAt_eq_of_cover 5 (Cert.Gcn.resid (V c main_v13) (V c main_arg7) (V c main_v14))
    (fun t _ => flushed_res2 V c t) cover_res2

end Cert.KernelIdeal.RegionDense

end
-- ==== Proof.RegionCombine.lean ====
/-
  The two combine steps of the graph convolution, each as one equation between whole arrays.

  A combine step runs over twenty grid points.  At point t it reads rows 5000 t, ..., 5000 t + 4999 of the
  aggregated array and of the residual array, and the whole bias row, and writes the same rows of its output:
  entry (p, q) of the written block is  max (a (p, q) + b q) 0 + r (p, q).  Every window of a 100000 by 64 array
  sits at row block t, and the twenty row blocks tile the 100000 rows, so after the step the output array is
  Cert.Gcn.combine of the three arrays the step starts from, whatever they hold.
-/
import proofs.«144645_j61005715472861_1_alg».proof.Proof.Gen.KernelIdeal.Frame
import proofs.«144645_j61005715472861_1_alg».proof.Proof.Spec
import Idealize.ShloMosaic.Lib.Pipeline.Value
import Idealize.ShloMosaic.Lib.ValueLayout
import Idealize.ShloMosaic.PureOps.Ideal.Laws

noncomputable section

namespace Cert.KernelIdeal.RegionCombine

open Cert.KernelIdeal Cert.KernelIdeal.Gen
open Idealize.ShloMosaic Idealize.ShloMosaic.ValueIdx Idealize.ShloMosaic.TcCoe Idealize.SL.Sem
open Idealize.ShloMosaic.Pipeline (Dat)

/-- The body's value at row p, feature q of a block: the aggregated entry plus the bias entry of that feature,
    cut off below at zero, plus the residual entry. -/
theorem pay_combine (x0 : Vec Ideal S5000x64 .f32) (x1 : Vec Ideal S1x64 .f32) (x2 : Vec Ideal S5000x64 .f32)
    (p : Fin 5000) (q : Fin 64) :
    k1_pay1 x0 x1 x2 (ix2 p q) = max (x0 (ix2 p q) + x1 (ix2 (0 : Fin 1) q)) 0 + x2 (ix2 p q) := by
  unfold k1_pay1
  simp only [shapeCast_self]
  rw [addf_apply, maximumf_apply, addf_apply, broadcast_apply, broadcastTo_1b_ab_apply]
  show max (x0 (ix2 p q) + x1 (ix2 (0 : Fin 1) q)) (Ideal.ofBits .f32 0x00000000#32) + x2 (ix2 p q) = _
  rw [Ideal.ofBits_zero_f32]

/-- The same entry, with each block entry read as an entry of a whole array: the combined array at row r. -/
theorem combine_entry (x0 : Vec Ideal S5000x64 .f32) (x1 : Vec Ideal S1x64 .f32) (x2 : Vec Ideal S5000x64 .f32)
    (A : Cert.Gcn.Nodes.Idx → EReal) (B : Cert.Gcn.Row.Idx → EReal) (R : Cert.Gcn.Nodes.Idx → EReal)
    (p : Fin 5000) (q : Fin 64) (r : Fin 100000)
    (hA : x0 (ix2 p q) = A (ix2 r q)) (hB : x1 (ix2 (0 : Fin 1) q) = B (ix2 (0 : Fin 1) q))
    (hR : x2 (ix2 p q) = R (ix2 r q)) :
    k1_pay1 x0 x1 x2 (ix2 p q) = Cert.Gcn.combine A B R (ix2 r q) := by
  rw [pay_combine, hA, hB, hR]
  rfl

/-- The second combine step's body is the first's, term for term. -/
theorem pay_second (x0 : Vec Ideal S5000x64 .f32) (x1 : Vec Ideal S1x64 .f32) (x2 : Vec Ideal S5000x64 .f32) :
    k3_pay1 x0 x1 x2 = k1_pay1 x0 x1 x2 := rfl

/-- The offset pair (0, 0) is the zero offset on both axes. -/
theorem zero_offsets : (![0, 0] : Fin 2 → Nat) = fun _ => 0 := funext fun a => by fin_cases a <;> rfl

variable (V : (c : Dev nD) → (b : Ref sig .tc) → Buf (Elt Ideal) ((c : Thread nD τ).loc b))

/-! ## The first combine region -/

/-- At grid point t the three node-array windows sit at row block t, column block 0, and the bias window at its
    one block. -/
theorem block_index1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

/-- Row p, feature q of the aggregated array's block at point t is row 5000 t + p, feature q of the array. -/
theorem agg_at1 (t : Fin cfg1.N) (p : Fin 5000) (q : Fin 64) (r : Fin 100000) (hr : r.val = t.val * 5000 + p.val) :
    (((cfg1.win 0).blk t).view.emb (ix2 p q) : S100000x64.Idx) = ix2 r q := by
  obtain ⟨e0, e1, -, -, -, -, -, -⟩ := block_index1 t
  funext a; apply Fin.ext
  match a with
  | ⟨0, _⟩ => show win1_0.index t (0 : Fin 2) * 5000 + 1 * p.val = r.val; rw [e0, hr]; omega
  | ⟨1, _⟩ => show win1_0.index t (1 : Fin 2) * 64 + 1 * q.val = q.val; rw [e1]; omega

/-- The bias window's block is the whole bias row. -/
theorem bias_at1 (t : Fin cfg1.N) (q : Fin 64) :
    (((cfg1.win 1).blk t).view.emb (ix2 (0 : Fin 1) q) : S1x64.Idx) = ix2 (0 : Fin 1) q := by
  obtain ⟨-, -, e2, e3, -, -, -, -⟩ := block_index1 t
  funext a; apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- Row p, feature q of the residual array's block at point t is row 5000 t + p, feature q of the array. -/
theorem res_at1 (t : Fin cfg1.N) (p : Fin 5000) (q : Fin 64) (r : Fin 100000) (hr : r.val = t.val * 5000 + p.val) :
    (((cfg1.win 2).blk t).view.emb (ix2 p q) : S100000x64.Idx) = ix2 r q := by
  obtain ⟨-, -, -, -, e4, e5, -, -⟩ := block_index1 t
  funext a; apply Fin.ext
  match a with
  | ⟨0, _⟩ => show win1_2.index t (0 : Fin 2) * 5000 + 1 * p.val = r.val; rw [e4, hr]; omega
  | ⟨1, _⟩ => show win1_2.index t (1 : Fin 2) * 64 + 1 * q.val = q.val; rw [e5]; omega

/-- Row p, feature q of the output's block at point t is row 5000 t + p, feature q of the output array. -/
theorem out_at1 (t : Fin cfg1.N) (p : Fin 5000) (q : Fin 64) (r : Fin 100000) (hr : r.val = t.val * 5000 + p.val) :
    (((cfg1.win 3).blk t).view.emb (ix2 p q) : S100000x64.Idx) = ix2 r q := by
  obtain ⟨-, -, -, -, -, -, e6, e7⟩ := block_index1 t
  funext a; apply Fin.ext
  match a with
  | ⟨0, _⟩ => show win1_3.index t (0 : Fin 2) * 5000 + 1 * p.val = r.val; rw [e6, hr]; omega
  | ⟨1, _⟩ => show win1_3.index t (1 : Fin 2) * 64 + 1 * q.val = q.val; rw [e7]; omega

/-- What grid point t writes back is block t of the combined array of the three arrays the region finds. -/
theorem flushed1_eq (c : Dev nD) (t : Fin cfg1.N) :
    (dat1 (F := Ideal) V c).flushed 3 t = ((cfg1.win 3).blk t).view.read (Elt Ideal)
      (Cert.Gcn.combine (V c main_v11) (V c main_v12) (V c main_v1_1)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  have hN : cfg1.N = 20 := N_1
  have ht : t.val < 20 := hN ▸ t.isLt
  have hr : t.val * 5000 + p.val < 100000 := by have := p.isLt; omega
  show k1_pay1 (iblk1 V c 0 t) (iblk1 V c 1 t) (iblk1 V c 2 t) (ix2 p q)
    = Cert.Gcn.combine (V c main_v11) (V c main_v12) (V c main_v1_1) (((cfg1.win 3).blk t).view.emb (ix2 p q))
  rw [out_at1 t p q ⟨t.val * 5000 + p.val, hr⟩ rfl]
  refine combine_entry _ _ _ _ _ _ p q ⟨t.val * 5000 + p.val, hr⟩ ?_ ?_ ?_
  · show V c main_v11 (((cfg1.win 0).blk t).view.emb (ix2 p q)) = V c main_v11 _
    exact congrArg _ (agg_at1 t p q _ rfl)
  · show V c main_v12 (((cfg1.win 1).blk t).view.emb (ix2 (0 : Fin 1) q)) = V c main_v12 _
    exact congrArg _ (bias_at1 t q)
  · show V c main_v1_1 (((cfg1.win 2).blk t).view.emb (ix2 p q)) = V c main_v1_1 _
    exact congrArg _ (res_at1 t p q _ rfl)

/-- An index of the output array is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v13).slice (win1_3.rect t)).set ↔ _
  rw [View.set_slice_whole, Rect.mem_set_unit]
  exact Iff.rfl

/-- Row r of the output array lies in the block of point r / 5000. -/
theorem mem_of_row1 (t : Fin cfg1.N) (i : S100000x64.Idx) (ht : t.val = (i 0).val / 5000) :
    i ∈ ((cfg1.win 3).blk t).view.set := by
  have hi1 : (i 1).val < 64 := (i 1).isLt
  obtain ⟨-, -, -, -, -, -, e6, e7⟩ := block_index1 t
  rw [mem_block1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 64 ≤ (i 1).val ∧ (i 1).val < win1_3.index t (1 : Fin 2) * 64 + 64; rw [e7]; omega

/-- The twenty blocks of 5000 rows cover the output array. -/
theorem cover1 (i : S100000x64.Idx) :
    ∃ t : Fin cfg1.N, (cfg1.win 3).flush t = true ∧ i ∈ ((cfg1.win 3).blk t).view.set := by
  have hi0 : (i 0).val < 100000 := (i 0).isLt
  have hN : cfg1.N = 20 := N_1
  exact ⟨⟨(i 0).val / 5000, by rw [hN]; omega⟩, flush1_3 _, mem_of_row1 _ i rfl⟩

/-- After the first combine region the output array is the combined array of the aggregated array, the bias row
    and the residual array as the region finds them. -/
theorem region1_out (c : Dev nD) :
    (dat1 (F := Ideal) V c).arrAt 3 cfg1.N = Cert.Gcn.combine (V c main_v11) (V c main_v12) (V c main_v1_1) :=
  (dat1 (F := Ideal) V c).arrAt_eq_of_cover 3 _ (fun t _ => flushed1_eq V c t) cover1

/-! ## The second combine region -/

/-- At grid point t the three node-array windows sit at row block t, column block 0, and the bias window at its
    one block. -/
theorem block_index3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- Row p, feature q of the aggregated array's block at point t is row 5000 t + p, feature q of the array. -/
theorem agg_at3 (t : Fin cfg3.N) (p : Fin 5000) (q : Fin 64) (r : Fin 100000) (hr : r.val = t.val * 5000 + p.val) :
    (((cfg3.win 0).blk t).view.emb (ix2 p q) : S100000x64.Idx) = ix2 r q := by
  obtain ⟨e0, e1, -, -, -, -, -, -⟩ := block_index3 t
  funext a; apply Fin.ext
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- The bias window's block is the whole bias row. -/
theorem bias_at3 (t : Fin cfg3.N) (q : Fin 64) :
    (((cfg3.win 1).blk t).view.emb (ix2 (0 : Fin 1) q) : S1x64.Idx) = ix2 (0 : Fin 1) q := by
  obtain ⟨-, -, e2, e3, -, -, -, -⟩ := block_index3 t
  funext a; apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- Row p, feature q of the residual array's block at point t is row 5000 t + p, feature q of the array. -/
theorem res_at3 (t : Fin cfg3.N) (p : Fin 5000) (q : Fin 64) (r : Fin 100000) (hr : r.val = t.val * 5000 + p.val) :
    (((cfg3.win 2).blk t).view.emb (ix2 p q) : S100000x64.Idx) = ix2 r q := by
  obtain ⟨-, -, -, -, e4, e5, -, -⟩ := block_index3 t
  funext a; apply Fin.ext
  match a with
  | ⟨0, _⟩ => show win3_2.index t (0 : Fin 2) * 5000 + 1 * p.val = r.val; rw [e4, hr]; omega
  | ⟨1, _⟩ => show win3_2.index t (1 : Fin 2) * 64 + 1 * q.val = q.val; rw [e5]; omega

/-- Row p, feature q of the output's block at point t is row 5000 t + p, feature q of the output array. -/
theorem out_at3 (t : Fin cfg3.N) (p : Fin 5000) (q : Fin 64) (r : Fin 100000) (hr : r.val = t.val * 5000 + p.val) :
    (((cfg3.win 3).blk t).view.emb (ix2 p q) : S100000x64.Idx) = ix2 r q := by
  obtain ⟨-, -, -, -, -, -, e6, e7⟩ := block_index3 t
  funext a; apply Fin.ext
  match a with
  | ⟨0, _⟩ => show win3_3.index t (0 : Fin 2) * 5000 + 1 * p.val = r.val; rw [e6, hr]; omega
  | ⟨1, _⟩ => show win3_3.index t (1 : Fin 2) * 64 + 1 * q.val = q.val; rw [e7]; omega

/-- What grid point t writes back is block t of the combined array of the three arrays the region finds. -/
theorem flushed3_eq (c : Dev nD) (t : Fin cfg3.N) :
    (dat3 (F := Ideal) V c).flushed 3 t = ((cfg3.win 3).blk t).view.read (Elt Ideal)
      (Cert.Gcn.combine (V c main_v25) (V c main_v26) (V c main_v15_1)) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  have hN : cfg3.N = 20 := N_3
  have ht : t.val < 20 := hN ▸ t.isLt
  have hr : t.val * 5000 + p.val < 100000 := by have := p.isLt; omega
  show k3_pay1 (iblk3 V c 0 t) (iblk3 V c 1 t) (iblk3 V c 2 t) (ix2 p q)
    = Cert.Gcn.combine (V c main_v25) (V c main_v26) (V c main_v15_1) (((cfg3.win 3).blk t).view.emb (ix2 p q))
  rw [pay_second, out_at3 t p q ⟨t.val * 5000 + p.val, hr⟩ rfl]
  refine combine_entry _ _ _ _ _ _ p q ⟨t.val * 5000 + p.val, hr⟩ ?_ ?_ ?_
  · show V c main_v25 (((cfg3.win 0).blk t).view.emb (ix2 p q)) = V c main_v25 _
    exact congrArg _ (agg_at3 t p q _ rfl)
  · show V c main_v26 (((cfg3.win 1).blk t).view.emb (ix2 (0 : Fin 1) q)) = V c main_v26 _
    exact congrArg _ (bias_at3 t q)
  · show V c main_v15_1 (((cfg3.win 2).blk t).view.emb (ix2 p q)) = V c main_v15_1 _
    exact congrArg _ (res_at3 t p q _ rfl)

/-- An index of the output array is in point t's block iff each coordinate is in the block's range on its axis. -/
theorem mem_block3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v27).slice (win3_3.rect t)).set ↔ _
  rw [View.set_slice_whole, Rect.mem_set_unit]
  exact Iff.rfl

/-- Row r of the output array lies in the block of point r / 5000. -/
theorem mem_of_row3 (t : Fin cfg3.N) (i : S100000x64.Idx) (ht : t.val = (i 0).val / 5000) :
    i ∈ ((cfg3.win 3).blk t).view.set := by
  have hi1 : (i 1).val < 64 := (i 1).isLt
  obtain ⟨-, -, -, -, -, -, e6, e7⟩ := block_index3 t
  rw [mem_block3]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 64 ≤ (i 1).val ∧ (i 1).val < win3_3.index t (1 : Fin 2) * 64 + 64; rw [e7]; omega

/-- The twenty blocks of 5000 rows cover the output array. -/
theorem cover3 (i : S100000x64.Idx) :
    ∃ t : Fin cfg3.N, (cfg3.win 3).flush t = true ∧ i ∈ ((cfg3.win 3).blk t).view.set := by
  have hi0 : (i 0).val < 100000 := (i 0).isLt
  have hN : cfg3.N = 20 := N_3
  exact ⟨⟨(i 0).val / 5000, by rw [hN]; omega⟩, flush3_3 _, mem_of_row3 _ i rfl⟩

/-- After the second combine region the output array is the combined array of the aggregated array, the bias row
    and the residual array as the region finds them. -/
theorem region3_out (c : Dev nD) :
    (dat3 (F := Ideal) V c).arrAt 3 cfg3.N = Cert.Gcn.combine (V c main_v25) (V c main_v26) (V c main_v15_1) :=
  (dat3 (F := Ideal) V c).arrAt_eq_of_cover 3 _ (fun t _ => flushed3_eq V c t) cover3

end Cert.KernelIdeal.RegionCombine

end
-- ==== Proof.KernelValue.lean ====
/-
  The kernel's result as one function of its arguments.

  The result array is the last combine launch's output.  Walking the chain of boundary contents backwards, each
  launch's output array is that launch's function of its input arrays (the projection, the residual, the join of the
  two branches), each input array is either an argument, a bias reshaped to a row, the previous launch's output, or
  the aggregation of the previous projection; composing the eight links gives two layers with one aggregation.
-/
import proofs.«144645_j61005715472861_1_alg».proof.Proof.Boundary
import proofs.«144645_j61005715472861_1_alg».proof.Proof.RegionDense
import proofs.«144645_j61005715472861_1_alg».proof.Proof.RegionCombine

set_option maxRecDepth 16384

noncomputable section

namespace Cert.KernelIdeal.KernelValue

open Cert.KernelIdeal Cert.KernelIdeal.Gen Cert.KernelIdeal.Boundary
open Cert.KernelIdeal.RegionDense Cert.KernelIdeal.RegionCombine
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- After the first launch: the features projected by the first convolution weights. -/
theorem W2_v1_0 : W2 m ρ c (Proc.devRef .tc main_v1_0) = Cert.Gcn.proj (m ((c : Thread nD τ).loc main_arg0)) (m ((c : Thread nD τ).loc main_arg1)) := by
  refine (W2_arr m ρ c 4).trans ?_
  rw [region0_xw]
  dsimp only [V1]
  rw [W1_arg0, W1_arg1]

/-- After the first launch: the first residual branch. -/
theorem W2_v1_1 : W2 m ρ c (Proc.devRef .tc main_v1_1)
    = Cert.Gcn.resid (m ((c : Thread nD τ).loc main_arg0)) (m ((c : Thread nD τ).loc main_arg3)) (Cert.Gcn.row (m ((c : Thread nD τ).loc main_arg4))) := by
  refine (W2_arr m ρ c 5).trans ?_
  rw [region0_res]
  dsimp only [V1]
  rw [W1_arg0, W1_arg3, W1_v0]

/-- After the second launch: the first layer. -/
theorem W4_v13 : W4 m ρ c (Proc.devRef .tc main_v13) = (Cert.Gcn.layer (agg (m ((c : Thread nD τ).loc main_arg9)) (m ((c : Thread nD τ).loc main_arg10))) (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 3).trans ?_
  rw [region1_out]
  dsimp only [V3]
  rw [W3_v11, W3_v12, W3_v1_1, W2_v1_0, W2_v1_1]
  rfl

/-- After the third launch: the first layer projected by the second convolution weights. -/
theorem W6_v15_0 : W6 m ρ c (Proc.devRef .tc main_v15_0) = Cert.Gcn.proj (Cert.Gcn.layer (agg (m ((c : Thread nD τ).loc main_arg9)) (m ((c : Thread nD τ).loc main_arg10))) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W6_arr m ρ c 4).trans ?_
  rw [region2_xw]
  dsimp only [V5]
  rw [W5_v13, W4_v13, W5_arg5]

/-- After the third launch: the second residual branch. -/
theorem W6_v15_1 : W6 m ρ c (Proc.devRef .tc main_v15_1)
    = Cert.Gcn.resid (Cert.Gcn.layer (agg (m ((c : Thread nD τ).loc main_arg9)) (m ((c : Thread nD τ).loc main_arg10))) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg7)) (Cert.Gcn.row (m ((c : Thread nD τ).loc main_arg8))) := by
  refine (W6_arr m ρ c 5).trans ?_
  rw [region2_res]
  dsimp only [V5]
  rw [W5_v13, W4_v13, W5_arg7, W5_v14]

/-- The result array: two layers with the kernel's aggregation. -/
theorem W8_v27 : W8 m ρ c (Proc.devRef .tc main_v27)
    = Cert.Gcn.twoLayers (agg (m ((c : Thread nD τ).loc main_arg9)) (m ((c : Thread nD τ).loc main_arg10))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ?_
  rw [region3_out]
  dsimp only [V7]
  rw [W7_v25, W7_v26, W7_v15_1, W6_v15_0, W6_v15_1]
  rfl

end Cert.KernelIdeal.KernelValue

end
-- ==== Proof.RefValue.lean ====
/-
  The plain program's value: two graph-convolution layers with one edge aggregation.

  Every stage of the plain program other than the edge aggregation reads its operands at one index, or sums
  over the 64 input features.  Reading the stages from the last one backwards gives, at node p and feature q,

      max (a (p, q) + b q) 0 + max ((x Wr) (p, q) + br q) 0,

  where a is the aggregation over the edges of the projected features x W.  The aggregation itself (gather the
  rows at the edges' sources, add them up at the edges' destinations, into an array of zeros) is kept as one
  unopened function of the two edge arrays and the projected features: nothing about it is used.
-/
import proofs.«144645_j61005715472861_1_alg».proof.Proof.Gen.ReferenceIdeal.Read
import proofs.«144645_j61005715472861_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The edge aggregation of a node array: a source index below zero is wrapped around by the number of nodes,
    the rows at the sources are gathered, and they are added up at the destinations into an array of zeros. -/
def agg (src dst : (⟨S1200000, .i32⟩ : BufTy).Contents (Elt Ideal)) (xw : (⟨S100000x64, .f32⟩ : BufTy).Contents (Elt Ideal)) :
    (⟨S100000x64, .f32⟩ : BufTy).Contents (Elt Ideal) :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (Host.gather gather_S100000x64_S1200000x1_S1200000x64_1_0_n_n_0_1_164 xw
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src)))

/-- The first layer's aggregation stage is the aggregation of its projection stage. -/
theorem scatter1_eq (x0 : (⟨S100000x64, .f32⟩ : BufTy).Contents (Elt Ideal)) (x1 : (⟨S64x64, .f32⟩ : BufTy).Contents (Elt Ideal))
    (x9 x10 : (⟨S1200000, .i32⟩ : BufTy).Contents (Elt Ideal)) :
    Read.val_main_v10 (F := Ideal) x0 x1 x9 x10 = agg x9 x10 (Read.val_main_v0 (F := Ideal) x0 x1) := rfl

/-- The projection stage is the matrix product of the features and the weights: entry (p, q) is the sum over the
    input features k of x (p, k) W (k, q). -/
theorem proj_eq (x : (⟨S100000x64, .f32⟩ : BufTy).Contents (Elt Ideal)) (W : (⟨S64x64, .f32⟩ : BufTy).Contents (Elt Ideal)) :
    Read.val_main_v0 (F := Ideal) x W = Cert.Gcn.proj x W := by
  funext i
  obtain ⟨p, q, rfl⟩ : ∃ (p : Fin 100000) (q : Fin 64), i = ix2 p q := ⟨i 0, i 1, eq_ix2 i⟩
  rw [Read.val_main_v0_apply, Cert.Gcn.proj_ix2]
  refine Finset.sum_congr rfl fun k _ => ?_
  have el : Read.lidx_main_v0 (ix2 p q) k = ix2 p k :=
    funext fun a => Fin.ext (by match a with | ⟨0, _⟩ => rfl | ⟨1, _⟩ => rfl)
  have er : Read.ridx_main_v0 (ix2 p q) k = ix2 k q :=
    funext fun a => Fin.ext (by match a with | ⟨0, _⟩ => rfl | ⟨1, _⟩ => rfl)
  rw [el, er]

/-- A bias vector broadcast to a 1 by 64 row and then down the 100000 nodes reads, at (p, q), the row at (0, q). -/
theorem bias_eq (b : (⟨S64, .f32⟩ : BufTy).Contents (Elt Ideal)) (p : Fin 100000) (q : Fin 64) :
    Read.val_main_v12 (F := Ideal) b (ix2 p q) = Cert.Gcn.row b (ix2 (0 : Fin 1) q) := by
  rw [Read.val_main_v12_apply, Read.val_main_v11_apply]
  unfold Cert.Gcn.row
  refine congrArg b (funext fun a => Fin.ext (by match a with | ⟨0, _⟩ => rfl))

/-- The array of zeros a cut-off at zero compares against is zero at every entry. -/
theorem zeros_eq (i : S100000x64.Idx) : Read.val_main_call0_v0 (F := Ideal) i = (0 : EReal) := by
  rw [Read.val_main_call0_v0_apply, Read.val_main_call0_cst_apply, Ideal.ofBits_def, Ideal.ofBits_zero_f32]

/-- One layer's stages, for any aggregation a and any input features x: the sum of the two cut-off branches is
    the layer of the specification. -/
theorem layer_stages_eq
    (a : (⟨S100000x64, .f32⟩ : BufTy).Contents (Elt Ideal) → (⟨S100000x64, .f32⟩ : BufTy).Contents (Elt Ideal))
    (x : (⟨S100000x64, .f32⟩ : BufTy).Contents (Elt Ideal))
    (W : (⟨S64x64, .f32⟩ : BufTy).Contents (Elt Ideal)) (b : (⟨S64, .f32⟩ : BufTy).Contents (Elt Ideal))
    (Wr : (⟨S64x64, .f32⟩ : BufTy).Contents (Elt Ideal)) (br : (⟨S64, .f32⟩ : BufTy).Contents (Elt Ideal)) :
    addf (F := Ideal) (s := S100000x64) (φ := .f32)
        (maximumf (addf (a (Read.val_main_v0 (F := Ideal) x W)) (Read.val_main_v12 (F := Ideal) b))
          (Read.val_main_call0_v0 (F := Ideal)))
        (maximumf (addf (Read.val_main_v0 (F := Ideal) x Wr) (Read.val_main_v12 (F := Ideal) br))
          (Read.val_main_call0_v0 (F := Ideal)))
      = Cert.Gcn.layer a x W b Wr br := by
  funext i
  obtain ⟨p, q, rfl⟩ : ∃ (p : Fin 100000) (q : Fin 64), i = ix2 p q := ⟨i 0, i 1, eq_ix2 i⟩
  rw [addf_apply, maximumf_apply, maximumf_apply, addf_apply, addf_apply, zeros_eq, bias_eq, bias_eq, proj_eq, proj_eq]
  rfl

/-- The first layer of the plain program is the specification's layer of the arguments, with the edge aggregation. -/
theorem layer1_eq (x0 : (⟨S100000x64, .f32⟩ : BufTy).Contents (Elt Ideal))
    (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal))
    (x9 x10 : (⟨S1200000, .i32⟩ : BufTy).Contents (Elt Ideal)) :
    Read.val_main_v20 (F := Ideal) x0 x1 x2 x3 x4 x9 x10 = Cert.Gcn.layer (agg x9 x10) x0 x1 x2 x3 x4 :=
  layer_stages_eq (agg x9 x10) x0 x1 x2 x3 x4

/-- The second layer's stages repeat the first's, with the first layer's result as the input features. -/
theorem layer2_eq (x0 : (⟨S100000x64, .f32⟩ : BufTy).Contents (Elt Ideal))
    (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 x10 : (⟨S1200000, .i32⟩ : BufTy).Contents (Elt Ideal)) :
    Read.val_main_v41 (F := Ideal) x0 x1 x2 x3 x4 x5 x6 x7 x8 x9 x10
      = Cert.Gcn.layer (agg x9 x10) (Read.val_main_v20 (F := Ideal) x0 x1 x2 x3 x4 x9 x10) x5 x6 x7 x8 :=
  layer_stages_eq (agg x9 x10) (Read.val_main_v20 (F := Ideal) x0 x1 x2 x3 x4 x9 x10) x5 x6 x7 x8

/-- The plain program's result is the two layers of the specification, both with the edge aggregation of the two
    edge arrays. -/
theorem result_eq (x0 : (⟨S100000x64, .f32⟩ : BufTy).Contents (Elt Ideal))
    (x1 : (⟨S64x64, .f32⟩ : BufTy).Contents (Elt Ideal)) (x2 : (⟨S64, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 x10 : (⟨S1200000, .i32⟩ : BufTy).Contents (Elt Ideal)) :
    Read.val_main_v41 (F := Ideal) x0 x1 x2 x3 x4 x5 x6 x7 x8 x9 x10
      = Cert.Gcn.twoLayers (agg x9 x10) x0 x1 x2 x3 x4 x5 x6 x7 x8 := by
  rw [layer2_eq, layer1_eq]
  rfl

end Cert.ReferenceIdeal.RefValue

end
-- ==== Proof.lean ====
/-
  The kernel and its reference compute the same two graph-convolution layers over the extended reals.

  Both programs apply, twice, the layer  max (agg (x W) + b) 0 + max (x Wr + br) 0,  where agg sums, for every node,
  the projected rows of its in-neighbours.  The kernel splits a layer into a projection launch (x W and the residual
  branch, block by block over 20 blocks of 5000 nodes, each product a sum over the 64 input features into a zero
  accumulator), the aggregation in host operations, and a combine launch (the bias, the cut-off at zero and the sum
  of the two branches, pointwise); the reference writes the same layer as whole-array operations.  Over the extended
  reals a change of float format is the identity and a block's product is the corresponding block of the whole
  product, so the two results are one function of the arguments; the aggregation is spelt by the same operations
  on both sides and is never opened.  No property of the inputs is used: sums of products are compared term by term.

  The three frames are the generated ones (the reference's is its generated run with the result dropped); the
  idealized kernel is the kernel's own text read over the extended reals, so nothing is owed for that conjunct.
-/
import proofs.«144645_j61005715472861_1_alg».proof.Defs
import proofs.«144645_j61005715472861_1_alg».proof.Proof.Gen.Kernel
import proofs.«144645_j61005715472861_1_alg».proof.Proof.Gen.Kernel.Skeleton
import proofs.«144645_j61005715472861_1_alg».proof.Proof.Gen.Kernel.Launch
import proofs.«144645_j61005715472861_1_alg».proof.Proof.Gen.Kernel.Points
import proofs.«144645_j61005715472861_1_alg».proof.Proof.Gen.Kernel.Frame
import proofs.«144645_j61005715472861_1_alg».proof.Proof.Gen.KernelIdeal
import proofs.«144645_j61005715472861_1_alg».proof.Proof.Gen.KernelIdeal.Skeleton
import proofs.«144645_j61005715472861_1_alg».proof.Proof.Gen.KernelIdeal.Launch
import proofs.«144645_j61005715472861_1_alg».proof.Proof.Gen.KernelIdeal.Points
import proofs.«144645_j61005715472861_1_alg».proof.Proof.Gen.KernelIdeal.Frame
import proofs.«144645_j61005715472861_1_alg».proof.Proof.Gen.ReferenceIdeal
import proofs.«144645_j61005715472861_1_alg».proof.Proof.Gen.ReferenceIdeal.Run
import proofs.«144645_j61005715472861_1_alg».proof.Proof.Gen.ReferenceIdeal.Read
import proofs.«144645_j61005715472861_1_alg».proof.Proof.Gen.Pre_finite_inputs
import proofs.«144645_j61005715472861_1_alg».proof.Proof.KernelRun
import proofs.«144645_j61005715472861_1_alg».proof.Proof.KernelValue
import proofs.«144645_j61005715472861_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The aggregation over the edges is one function, whichever program's spelling is read: the two terms differ only
    in which program's copy of the shapes and of the gather and scatter dimension records they name. -/
theorem agg_eq (src dst : (⟨Cert.KernelIdeal.S1200000, .i32⟩ : BufTy).Contents (Elt Ideal))
    (xw : (⟨Cert.KernelIdeal.S100000x64, .f32⟩ : BufTy).Contents (Elt Ideal)) :
    Cert.ReferenceIdeal.RefValue.agg src dst xw = Cert.KernelIdeal.Boundary.agg src dst xw := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at two layers of the arguments with the one aggregation. -/
theorem algebraic : Cert.algebraic_KernelIdeal_ReferenceIdeal := by
  intro m ρ m' ρ' _ hagree
  refine ⟨fun c => Cert.Gcn.twoLayers (Cert.KernelIdeal.Boundary.agg (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨((h c).1).trans (Cert.KernelIdeal.KernelValue.W8_v27 m ρ c), (h c).2⟩)
      (Cert.KernelIdeal.NamedRun.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v41_eq, Cert.ReferenceIdeal.RefValue.result_eq,
      e0, e1, e2, e3, e4, e5, e6, e7, e8, e9, e10]
    exact congrArg (fun a => Cert.Gcn.twoLayers a (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (funext fun xw => agg_eq _ _ xw)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
